-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x200000x18 : Shape := ⟨3, ![16, 200000, 18]⟩
abbrev S3 : Shape := ⟨1, ![3]⟩
abbrev S_ : Shape := ⟨0, ![]⟩

class Facts : Prop where
  bcast_S_S16x200000x18 : S_.BroadcastsInDim S16x200000x18 (![] : Fin 0 → Fin S16x200000x18.rank)
  reducesTo_S16x200000x18_S_d0_1_2 : S16x200000x18.ReducesTo [0, 1, 2] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S16x200000x18 .f32) (main_arg1 : FVec F S3 .f32) : IVec S_ 1 :=
  let main_v0 : FVec F S16x200000x18 .f32 := Host.absf main_arg0
  let main_cst : FVec F S_ .f32 := constant S_ .f32 0x7F800000#32
  let main_v1 : FVec F S16x200000x18 .f32 := broadcastInDim S16x200000x18 ![] bcast_S_S16x200000x18 main_cst
  let main_v2 : IVec S16x200000x18 1 := cmpf .olt main_v0 main_v1
  let main_c : IVec S_ 1 := constantI S_ 1 1#1
  let main_v3 : IVec S_ 1 := (fun x v => Host.reduce IntOp.andi x v reducesTo_S16x200000x18_S_d0_1_2 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  main_v8
-- ==== Kernel.lean ====
abbrev S16x200000x18 : Shape := ⟨3, ![16, 200000, 18]⟩
abbrev S3 : Shape := ⟨1, ![3]⟩
abbrev S3200000x18 : Shape := ⟨2, ![3200000, 18]⟩
abbrev S3x3200000 : Shape := ⟨2, ![3, 3200000]⟩
abbrev S16000x18 : Shape := ⟨2, ![16000, 18]⟩
abbrev S3x16000 : Shape := ⟨2, ![3, 16000]⟩
abbrev S18x16000 : Shape := ⟨2, ![18, 16000]⟩
abbrev S16000 : Shape := ⟨1, ![16000]⟩
abbrev S1x16000 : Shape := ⟨2, ![1, 16000]⟩
abbrev S1 : Shape := ⟨1, ![1]⟩
abbrev S1x1 : Shape := ⟨2, ![1, 1]⟩
abbrev S3200000x3 : Shape := ⟨2, ![3200000, 3]⟩
abbrev S16x200000x3 : Shape := ⟨3, ![16, 200000, 3]⟩

abbrev nBuf : Space → Nat
  | .hbm => 6
  | .vmem => 5
  | .smem => 0
  | _ => 0

abbrev bufTy : (tb : Table) → Fin (tcTables nBuf tb) → BufTy
  | .hbm, ⟨0, _⟩ => ⟨S16x200000x18, .f32⟩
  | .hbm, ⟨1, _⟩ => ⟨S3, .f32⟩
  | .hbm, ⟨2, _⟩ => ⟨S3200000x18, .f32⟩
  | .hbm, ⟨3, _⟩ => ⟨S3x3200000, .f32⟩
  | .hbm, ⟨4, _⟩ => ⟨S3200000x3, .f32⟩
  | .hbm, ⟨5, _⟩ => ⟨S16x200000x3, .f32⟩
  | .local _ .vmem, ⟨0, _⟩ => ⟨S16000x18, .f32⟩
  | .local _ .vmem, ⟨1, _⟩ => ⟨S16000x18, .f32⟩
  | .local _ .vmem, ⟨2, _⟩ => ⟨S3, .f32⟩
  | .local _ .vmem, ⟨3, _⟩ => ⟨S3x16000, .f32⟩
  | .local _ .vmem, ⟨4, _⟩ => ⟨S3x16000, .f32⟩
  | _, _ => ⟨S16x200000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x200000x18_S3200000x18 : S16x200000x18.ShapeCasts S3200000x18
  inb_S16000x18_S16000x18_0_0 : ∀ a, (![0, 0] : Fin 2 → Nat) a + S16000x18.size a ≤ S16000x18.size a
  h_S16000x18 : 0 < S16000x18.numel
  shapeCasts_S16000x18_S16000x18 : S16000x18.ShapeCasts S16000x18
  transposes_S16000x18_p1_0_S18x16000 : S16000x18.Transposes [1, 0] S18x16000
  slices_S18x16000_o0_0_S3x16000 : S18x16000.Slices ![0, 0] S3x16000
  slices_S18x16000_o3_0_S3x16000 : S18x16000.Slices ![3, 0] S3x16000
  slices_S18x16000_o6_0_S3x16000 : S18x16000.Slices ![6, 0] S3x16000
  reduces_S3x16000_S16000 : S3x16000.Reduces [0] S16000
  shapeCasts_S16000_S1x16000 : S16000.ShapeCasts S1x16000
  inb_S3_S3_0 : ∀ a, (![0] : Fin 1 → Nat) a + S3.size a ≤ S3.size a
  h_S3 : 0 < S3.numel
  slices_S3_o0_S1 : S3.Slices ![0] S1
  shapeCasts_S1_S1x1 : S1.ShapeCasts S1x1
  broadcasts_S1x1_S1x16000 : S1x1.Broadcasts S1x16000
  slices_S3_o1_S1 : S3.Slices ![1] S1
  slices_S3_o2_S1 : S3.Slices ![2] S1
  concatenates_S1x16000_S1x16000_S1x16000_S3x16000_d0 : Shape.Concatenates [S1x16000, S1x16000, S1x16000] S3x16000 0
  inb_S3x16000_S3x16000_0_0 : ∀ a, (![0, 0] : Fin 2 → Nat) a + S3x16000.size a ≤ S3x16000.size a
  h_S3x16000 : 0 < S3x16000.numel
  transposes_S3x3200000_S3200000x3_1_0 : S3x3200000.Transposes [1, 0] S3200000x3
  shapeCasts_S3200000x3_S16x200000x3 : S3200000x3.ShapeCasts S16x200000x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x18.size a ≤ S3200000x18.size a
  hwx0_0 : ∀ i : grid0.Coords, EltTy.bits .f32 = 32 ∨ (Rect.block (s := S3200000x18) S16000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3.size a ≤ S3.size a
  hwx0_1 : ∀ i : grid0.Coords, EltTy.bits .f32 = 32 ∨ (Rect.block (s := S3) S3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x16000.size a ≤ S3x3200000.size a
  hwx0_2 : ∀ i : grid0.Coords, EltTy.bits .f32 = 32 ∨ (Rect.block (s := S3x3200000) S3x16000.size (cc0_transform_2 i) (hinb0_2 i)).WholeWords (EltTy.packing .f32)

variable [Facts₀]

abbrev win0_0 : Pipeline.Window sig grid0 :=
  Pipeline.Window.ofSpec (Memref.whole main_v0) S16000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x16000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x200000x18 : Shape := ⟨3, ![16, 200000, 18]⟩
abbrev S3 : Shape := ⟨1, ![3]⟩
abbrev S16x200000x9 : Shape := ⟨3, ![16, 200000, 9]⟩
abbrev S16x200000x3x3 : Shape := ⟨4, ![16, 200000, 3, 3]⟩
abbrev S16x200000x1x3 : Shape := ⟨4, ![16, 200000, 1, 3]⟩
abbrev S16x200000x3 : Shape := ⟨3, ![16, 200000, 3]⟩
abbrev S_ : Shape := ⟨0, ![]⟩
abbrev S1x1x3 : Shape := ⟨3, ![1, 1, 3]⟩

abbrev nBuf : Space → Nat
  | .hbm => 30
  | .vmem => 0
  | .smem => 0
  | _ => 0

abbrev bufTy : (tb : Table) → Fin (tcTables nBuf tb) → BufTy
  | .hbm, ⟨0, _⟩ => ⟨S16x200000x18, .f32⟩
  | .hbm, ⟨1, _⟩ => ⟨S3, .f32⟩
  | .hbm, ⟨2, _⟩ => ⟨S16x200000x9, .f32⟩
  | .hbm, ⟨3, _⟩ => ⟨S16x200000x3x3, .f32⟩
  | .hbm, ⟨4, _⟩ => ⟨S16x200000x1x3, .f32⟩
  | .hbm, ⟨5, _⟩ => ⟨S16x200000x3, .f32⟩
  | .hbm, ⟨6, _⟩ => ⟨S16x200000x1x3, .f32⟩
  | .hbm, ⟨7, _⟩ => ⟨S16x200000x3, .f32⟩
  | .hbm, ⟨8, _⟩ => ⟨S16x200000x3, .f32⟩
  | .hbm, ⟨9, _⟩ => ⟨S16x200000x1x3, .f32⟩
  | .hbm, ⟨10, _⟩ => ⟨S16x200000x3, .f32⟩
  | .hbm, ⟨11, _⟩ => ⟨S16x200000x1x3, .f32⟩
  | .hbm, ⟨12, _⟩ => ⟨S16x200000x3, .f32⟩
  | .hbm, ⟨13, _⟩ => ⟨S16x200000x3, .f32⟩
  | .hbm, ⟨14, _⟩ => ⟨S16x200000x1x3, .f32⟩
  | .hbm, ⟨15, _⟩ => ⟨S16x200000x3, .f32⟩
  | .hbm, ⟨16, _⟩ => ⟨S16x200000x1x3, .f32⟩
  | .hbm, ⟨17, _⟩ => ⟨S16x200000x3, .f32⟩
  | .hbm, ⟨18, _⟩ => ⟨S16x200000x3, .f32⟩
  | .hbm, ⟨19, _⟩ => ⟨S16x200000x1x3, .f32⟩
  | .hbm, ⟨20, _⟩ => ⟨S16x200000x1x3, .f32⟩
  | .hbm, ⟨21, _⟩ => ⟨S16x200000x1x3, .f32⟩
  | .hbm, ⟨22, _⟩ => ⟨S16x200000x3x3, .f32⟩
  | .hbm, ⟨23, _⟩ => ⟨S16x200000x3x3, .f32⟩
  | .hbm, ⟨24, _⟩ => ⟨S_, .f32⟩
  | .hbm, ⟨25, _⟩ => ⟨S16x200000x3, .f32⟩
  | .hbm, ⟨26, _⟩ => ⟨S16x200000x3, .f32⟩
  | .hbm, ⟨27, _⟩ => ⟨S1x1x3, .f32⟩
  | .hbm, ⟨28, _⟩ => ⟨S16x200000x3, .f32⟩
  | .hbm, ⟨29, _⟩ => ⟨S16x200000x3, .f32⟩
  | _, _ => ⟨S16x200000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]

class Facts₀ : Prop where
  slices_S16x200000x18_S16x200000x9_0_0_0 : S16x200000x18.Slices ![0, 0, 0] S16x200000x9
  shapeCasts_S16x200000x9_S16x200000x3x3 : S16x200000x9.ShapeCasts S16x200000x3x3
  slices_S16x200000x3x3_S16x200000x1x3_0_0_0_0 : S16x200000x3x3.Slices ![0, 0, 0, 0] S16x200000x1x3
  shapeCasts_S16x200000x1x3_S16x200000x3 : S16x200000x1x3.ShapeCasts S16x200000x3
  slices_S16x200000x3x3_S16x200000x1x3_0_0_1_0 : S16x200000x3x3.Slices ![0, 0, 1, 0] S16x200000x1x3
  slices_S16x200000x3x3_S16x200000x1x3_0_0_2_0 : S16x200000x3x3.Slices ![0, 0, 2, 0] S16x200000x1x3
  bcast_S16x200000x3_S16x200000x1x3_0_1_3 : S16x200000x3.BroadcastsInDim S16x200000x1x3 (![0, 1, 3] : Fin 3 → Fin S16x200000x1x3.rank)
  concatenates_S16x200000x1x3_S16x200000x1x3_S16x200000x1x3_S16x200000x3x3_d2 : Shape.Concatenates [S16x200000x1x3, S16x200000x1x3, S16x200000x1x3] S16x200000x3x3 2
  reducesTo_S16x200000x3x3_S16x200000x3_d3 : S16x200000x3x3.ReducesTo [3] S16x200000x3
  h_S_ : 0 < S_.numel
  bcast_S3_S1x1x3_2 : S3.BroadcastsInDim S1x1x3 (![2] : Fin 1 → Fin S1x1x3.rank)
  bcast_S1x1x3_S16x200000x3_0_1_2 : S1x1x3.BroadcastsInDim S16x200000x3 (![0, 1, 2] : Fin 3 → Fin S16x200000x3.rank)

variable [Facts₀]

class Facts : Prop extends Facts₀ where

variable [Facts]
-- ==== Proof.LibConcat3.lean ====
/-
  A concatenation of three pieces of ONE shape whose extent along the joined axis is 1 (three rows stacked into a
  [3, n] array, three [.., 1, 3] slabs stacked into [.., 3, 3]), read at an index: the piece that the index's
  coordinate on the joined axis names, at the index with the same coordinates on every other axis. One lemma per
  piece; each is the general "piece whose span holds the coordinate" reading with the spans 0, 1, 2 filled in.
-/
import Idealize.ShloMosaic.Lib.Pipeline.Value

namespace Cert.LibConcat3

open Idealize.ShloMosaic

variable {α : Type} {t s₁ : Shape}

/-- On an axis of extent 1 a coordinate is 0. -/
theorem unit_coord (a : Fin t.rank) (hr : s₁.rank = t.rank) (h1 : s₁.size (a.cast hr.symm) = 1) (i : s₁.Idx) :
    (i (a.cast hr.symm)).val = 0 := by
  have h : (i (a.cast hr.symm)).val < s₁.size (a.cast hr.symm) := (i (a.cast hr.symm)).isLt
  omega

/-- Coordinate 0 on the joined axis reads the first piece. -/
theorem apply_zero (a : Fin t.rank) (f0 f1 f2 : s₁.Idx → α)
    (h : Shape.Concatenates [s₁, s₁, s₁] t a) (hr : s₁.rank = t.rank) (h1 : s₁.size (a.cast hr.symm) = 1)
    (j : t.Idx) (hj : (j a).val = 0) (i : s₁.Idx)
    (hi : ∀ b : Fin s₁.rank, b.cast hr ≠ a → (i b).val = (j (b.cast hr)).val) :
    concatenate t a [⟨s₁, f0⟩, ⟨s₁, f1⟩, ⟨s₁, f2⟩] h j = f0 i :=
  concatenate_apply_piece a [⟨s₁, f0⟩, ⟨s₁, f1⟩, ⟨s₁, f2⟩] h j 0 (by simp) s₁ f0 rfl hr 0 rfl i hi
    (by rw [unit_coord a hr h1 i, hj])

/-- Coordinate 1 on the joined axis reads the second piece. -/
theorem apply_one (a : Fin t.rank) (f0 f1 f2 : s₁.Idx → α)
    (h : Shape.Concatenates [s₁, s₁, s₁] t a) (hr : s₁.rank = t.rank) (h1 : s₁.size (a.cast hr.symm) = 1)
    (j : t.Idx) (hj : (j a).val = 1) (i : s₁.Idx)
    (hi : ∀ b : Fin s₁.rank, b.cast hr ≠ a → (i b).val = (j (b.cast hr)).val) :
    concatenate t a [⟨s₁, f0⟩, ⟨s₁, f1⟩, ⟨s₁, f2⟩] h j = f1 i :=
  concatenate_apply_piece a [⟨s₁, f0⟩, ⟨s₁, f1⟩, ⟨s₁, f2⟩] h j 1 (by simp) s₁ f1 rfl hr 1
    (by show (if h : s₁.rank = t.rank then s₁.size (a.cast h.symm) else 0) + 0 = 1
        rw [dif_pos hr, h1]) i hi
    (by rw [unit_coord a hr h1 i, hj])

/-- Coordinate 2 on the joined axis reads the third piece. -/
theorem apply_two (a : Fin t.rank) (f0 f1 f2 : s₁.Idx → α)
    (h : Shape.Concatenates [s₁, s₁, s₁] t a) (hr : s₁.rank = t.rank) (h1 : s₁.size (a.cast hr.symm) = 1)
    (j : t.Idx) (hj : (j a).val = 2) (i : s₁.Idx)
    (hi : ∀ b : Fin s₁.rank, b.cast hr ≠ a → (i b).val = (j (b.cast hr)).val) :
    concatenate t a [⟨s₁, f0⟩, ⟨s₁, f1⟩, ⟨s₁, f2⟩] h j = f2 i :=
  concatenate_apply_piece a [⟨s₁, f0⟩, ⟨s₁, f1⟩, ⟨s₁, f2⟩] h j 2 (by simp) s₁ f2 rfl hr 2
    (by show (if h : s₁.rank = t.rank then s₁.size (a.cast h.symm) else 0)
          + ((if h : s₁.rank = t.rank then s₁.size (a.cast h.symm) else 0) + 0) = 2
        rw [dif_pos hr, h1]) i hi
    (by rw [unit_coord a hr h1 i, hj])

end Cert.LibConcat3
-- ==== Proof.Spec.lean ====
/-
  What both programs compute, as one function of the two argument arrays.

  A row of the position array holds three particles of a water molecule, particle p at channels 3p, 3p+1, 3p+2
  (the remaining nine channels, the velocities, are never read). For each particle p the result is the distance
  from p to the next particle (cyclically: 0→1, 1→2, 2→0) less the p-th reference length:

      out (b, n, p) = √( Σ_k (x (b, n, 3p+k) − x (b, n, 3p'+k))² ) − l p,     p' = p+1 mod 3,   k = 0, 1, 2,

  on the extended reals, with the ideal instance's square root. Nothing in the comparison of the two programs
  uses an algebraic law beyond 0 + s = s, so finiteness of the inputs is never needed.
-/
import Idealize.ShloMosaic.PureOps.Ideal.Laws
import Idealize.ShloMosaic.Lib.ValueIdx

noncomputable section

namespace Cert.Water

open Idealize.ShloMosaic Idealize.ShloMosaic.ValueIdx

/-- Channel 3p + k of a row: coordinate k of particle p. -/
abbrev ch (p k : Fin 3) : Fin 18 := ⟨3 * p.val + k.val, by omega⟩

/-- The particle after p, cyclically. -/
abbrev nxt (p : Fin 3) : Fin 3 :=
  match p with
  | ⟨0, _⟩ => 1
  | ⟨1, _⟩ => 2
  | ⟨2, _⟩ => 0

/-- The distance between particles p and q of one row. -/
def bondLen (row : Fin 18 → EReal) (p q : Fin 3) : EReal :=
  Ideal.sqrt (∑ k : Fin 3, (row (ch p k) - row (ch q k)) * (row (ch p k) - row (ch q k)))

/-- The p-th bond constraint of one row: the distance to the next particle less the p-th length. -/
def constraint (row : Fin 18 → EReal) (len : Fin 3 → EReal) (p : Fin 3) : EReal :=
  bondLen row p (nxt p) - len p

/-- The whole result: the constraint of row (b, n) at particle p, for every (b, n, p). -/
def G (x : (⟨3, ![16, 200000, 18]⟩ : Shape).Idx → EReal) (l : (⟨1, ![3]⟩ : Shape).Idx → EReal) :
    (⟨3, ![16, 200000, 3]⟩ : Shape).Idx → EReal :=
  fun i => constraint (fun c => x (ix3 (i 0 : Fin 16) (i 1 : Fin 200000) c)) (fun p => l (ix1 p)) (i 2 : Fin 3)

theorem G_apply (x : (⟨3, ![16, 200000, 18]⟩ : Shape).Idx → EReal) (l : (⟨1, ![3]⟩ : Shape).Idx → EReal)
    (b : Fin 16) (n : Fin 200000) (p : Fin 3) :
    G x l (ix3 b n p) = constraint (fun c => x (ix3 b n c)) (fun q => l (ix1 q)) p := rfl

end Cert.Water

end
-- ==== Proof.KernelBlock.lean ====
/-
  What the kernel body stores, read at an index.

  The body loads a block of 16000 rows by 18 channels and the three lengths, transposes the block to channels by
  rows, takes the three particles as 3 × 16000 slabs (channels 0–2, 3–5, 6–8), forms the three differences
  p0 − p1, p1 − p2, p2 − p0, sums each difference's squares over its three coordinates (a reduction along the
  slab's first axis), takes the square root, subtracts the matching length broadcast along the row axis, and
  stacks the three 1 × 16000 rows. At (p, r) the stored value is therefore the p-th bond constraint of row r of
  the block: √(Σ_k (x (r, 3p+k) − x (r, 3p'+k))²) − l p.
-/
import proofs.«173525_j36472862277947_2_alg».proof.Proof.Gen.KernelIdeal.Skeleton
import proofs.«173525_j36472862277947_2_alg».proof.Proof.LibConcat3
import proofs.«173525_j36472862277947_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Cert.Water
open Idealize.ShloMosaic Idealize.ShloMosaic.ValueIdx

/-- A three-channel slab of the transposed block: at (k, r) it is the block at row r, channel off + k. -/
theorem slab_at (x0 : FVec Ideal S16000x18 .f32) (off : Nat) (hoff : off + 3 ≤ 18)
    (hc : S16000x18.ShapeCasts S16000x18) (ht : S16000x18.Transposes [1, 0] S18x16000)
    (hs : S18x16000.Slices ![off, 0] S3x16000) (k : Fin 3) (r : Fin 16000) :
    extractStridedSlice S3x16000 ![off, 0] (transpose S18x16000 [1, 0] (shapeCast S16000x18 x0 hc) ht) hs (ix2 k r)
      = x0 (ix2 r (⟨off + k.val, by omega⟩ : Fin 18)) := by
  rw [shapeCast_self]
  refine (extractStridedSlice_apply ![off, 0] _ hs (ix2 k r) (ix2 (⟨off + k.val, by omega⟩ : Fin 18) r)
    (fun a => ?_)).trans (transpose_ix2_apply x0 ht _ _)
  match a with
  | ⟨0, _⟩ => rfl
  | ⟨1, _⟩ => show r.val = 0 + r.val; omega

/-- The length of a slab's columns: the square root of the sum of squares along the first axis, kept as one row. -/
theorem norm_at (d : FVec Ideal S3x16000 .f32) (hr : S3x16000.Reduces [0] S16000)
    (hφ : FKind.Formats .f32) (hacc : (0x00000000#32 : BitVec 32) = FKind.add.neutral .f32 hφ)
    (hc : S16000.ShapeCasts S1x16000) (z : Fin 1) (r : Fin 16000) :
    sqrt (shapeCast S1x16000 (multiReduction .add [0] S16000 (mulf d d) 0x00000000#32 hr hφ hacc) hc) (ix2 z r)
      = Ideal.sqrt (∑ k : Fin 3, d (ix2 k r) * d (ix2 k r)) := by
  show Ideal.sqrt (shapeCast S1x16000 (multiReduction .add [0] S16000 (mulf d d) 0x00000000#32 hr hφ hacc) hc (ix2 z r)) = _
  refine congrArg Ideal.sqrt ?_
  refine (shapeCast_a_1a_apply _ hc z r).trans ?_
  refine (Ideal.multiReduction_add_single (mulf d d) 0x00000000#32 hr hφ hacc (ix1 r)).trans ?_
  refine Finset.sum_congr rfl fun k _ => ?_
  show d (hr.lift (ix1 r) k) * d (hr.lift (ix1 r) k) = _
  have e : hr.lift (ix1 r) k = ix2 k r := by
    funext a; apply Fin.ext
    match a with
    | ⟨0, _⟩ => rfl
    | ⟨1, _⟩ => rfl
  rw [e]; rfl

/-- One of the three lengths, sliced out, made a 1 × 1 array and broadcast along the row axis. -/
theorem len_at (l0 : FVec Ideal S3 .f32) (o : Nat) (ho : o < 3) (hs : S3.Slices ![o] S1)
    (hc : S1.ShapeCasts S1x1) (hb : S1x1.Broadcasts S1x16000) (z : Fin 1) (r : Fin 16000) :
    broadcastTo S1x16000 (shapeCast S1x1 (extractStridedSlice S1 ![o] l0 hs) hc) hb (ix2 z r) = l0 (ix1 (⟨o, ho⟩ : Fin 3)) := by
  refine (broadcastTo_apply _ hb (ix2 z r) (ix2 (0 : Fin 1) (0 : Fin 1)) (fun a => ?_)).trans ?_
  · match a with
    | ⟨0, _⟩ => rfl
    | ⟨1, _⟩ => rfl
  refine (shapeCast_a_1a_apply _ hc (0 : Fin 1) (0 : Fin 1)).trans ?_
  refine extractStridedSlice_apply ![o] l0 hs (ix1 (0 : Fin 1)) (ix1 (⟨o, ho⟩ : Fin 3)) (fun a => ?_)
  match a with
  | ⟨0, _⟩ => rfl

/-- One stored row: a difference of two slabs, its column lengths, less one broadcast length. At (z, r) it is the
    distance between the two particles of row r less that length. -/
theorem bond_at (x0 : FVec Ideal S16000x18 .f32) (l0 : FVec Ideal S3 .f32)
    (op oq : Nat) (hop : op + 3 ≤ 18) (hoq : oq + 3 ≤ 18) (ol : Nat) (hol : ol < 3)
    (hc : S16000x18.ShapeCasts S16000x18) (ht : S16000x18.Transposes [1, 0] S18x16000)
    (hsp : S18x16000.Slices ![op, 0] S3x16000) (hsq : S18x16000.Slices ![oq, 0] S3x16000)
    (hr : S3x16000.Reduces [0] S16000) (hφ : FKind.Formats .f32)
    (hacc : (0x00000000#32 : BitVec 32) = FKind.add.neutral .f32 hφ) (hc1 : S16000.ShapeCasts S1x16000)
    (hsl : S3.Slices ![ol] S1) (hcl : S1.ShapeCasts S1x1) (hbl : S1x1.Broadcasts S1x16000)
    (z : Fin 1) (r : Fin 16000) :
    subf
        (sqrt (shapeCast S1x16000 (multiReduction .add [0] S16000
          (mulf
            (subf (extractStridedSlice S3x16000 ![op, 0] (transpose S18x16000 [1, 0] (shapeCast S16000x18 x0 hc) ht) hsp)
              (extractStridedSlice S3x16000 ![oq, 0] (transpose S18x16000 [1, 0] (shapeCast S16000x18 x0 hc) ht) hsq))
            (subf (extractStridedSlice S3x16000 ![op, 0] (transpose S18x16000 [1, 0] (shapeCast S16000x18 x0 hc) ht) hsp)
              (extractStridedSlice S3x16000 ![oq, 0] (transpose S18x16000 [1, 0] (shapeCast S16000x18 x0 hc) ht) hsq)))
          0x00000000#32 hr hφ hacc) hc1))
        (broadcastTo S1x16000 (shapeCast S1x1 (extractStridedSlice S1 ![ol] l0 hsl) hcl) hbl) (ix2 z r)
      = Ideal.sqrt (∑ k : Fin 3,
          (x0 (ix2 r (⟨op + k.val, by omega⟩ : Fin 18)) - x0 (ix2 r (⟨oq + k.val, by omega⟩ : Fin 18)))
            * (x0 (ix2 r (⟨op + k.val, by omega⟩ : Fin 18)) - x0 (ix2 r (⟨oq + k.val, by omega⟩ : Fin 18))))
        - l0 (ix1 (⟨ol, hol⟩ : Fin 3)) := by
  refine (subf_apply _ _ _).trans ?_
  refine congrArg₂ (fun s t : EReal => s - t) ?_ (len_at l0 ol hol hsl hcl hbl z r)
  refine (norm_at _ hr hφ hacc hc1 z r).trans ?_
  refine congrArg Ideal.sqrt (Finset.sum_congr rfl fun k _ => ?_)
  have e := (subf_apply (extractStridedSlice S3x16000 ![op, 0] (transpose S18x16000 [1, 0] (shapeCast S16000x18 x0 hc) ht) hsp)
      (extractStridedSlice S3x16000 ![oq, 0] (transpose S18x16000 [1, 0] (shapeCast S16000x18 x0 hc) ht) hsq) (ix2 k r)).trans
    (congrArg₂ (fun s t : EReal => s - t) (slab_at x0 op hop hc ht hsp k r) (slab_at x0 oq hoq hc ht hsq k r))
  exact congrArg₂ (fun s t : EReal => s * t) e e

/-- The stored block at (p, r): the p-th bond constraint of row r of the loaded block. -/
theorem pay_at (x0 : Vec Ideal S16000x18 .f32) (l0 : Vec Ideal S3 .f32) (p : Fin 3) (r : Fin 16000) :
    k0_pay1 (F := Ideal) x0 l0 (ix2 p r) = constraint (fun c => x0 (ix2 r c)) (fun q => l0 (ix1 q)) p := by
  have hi : ∀ a : Fin S1x16000.rank, a.cast (rfl : S1x16000.rank = S3x16000.rank) ≠ (0 : Fin 2) →
      ((ix2 (0 : Fin 1) r : S1x16000.Idx) a).val = ((ix2 p r : S3x16000.Idx) (a.cast rfl)).val := by
    intro a ha
    match a with
    | ⟨0, _⟩ => exact absurd (Fin.ext rfl) ha
    | ⟨1, _⟩ => rfl
  unfold k0_pay1 constraint bondLen
  dsimp only
  match p with
  | ⟨0, h0⟩ =>
    exact (Cert.LibConcat3.apply_zero (t := S3x16000) (s₁ := S1x16000) (0 : Fin 2) _ _ _ _ rfl rfl
      (ix2 (⟨0, h0⟩ : Fin 3) r : S3x16000.Idx) rfl (ix2 (0 : Fin 1) r : S1x16000.Idx) hi).trans
      (bond_at x0 l0 0 3 (by decide) (by decide) 0 (by decide) _ _ _ _ _ _ _ _ _ _ _ 0 r)
  | ⟨1, h1⟩ =>
    exact (Cert.LibConcat3.apply_one (t := S3x16000) (s₁ := S1x16000) (0 : Fin 2) _ _ _ _ rfl rfl
      (ix2 (⟨1, h1⟩ : Fin 3) r : S3x16000.Idx) rfl (ix2 (0 : Fin 1) r : S1x16000.Idx) hi).trans
      (bond_at x0 l0 3 6 (by decide) (by decide) 1 (by decide) _ _ _ _ _ _ _ _ _ _ _ 0 r)
  | ⟨2, h2⟩ =>
    exact (Cert.LibConcat3.apply_two (t := S3x16000) (s₁ := S1x16000) (0 : Fin 2) _ _ _ _ rfl rfl
      (ix2 (⟨2, h2⟩ : Fin 3) r : S3x16000.Idx) rfl (ix2 (0 : Fin 1) r : S1x16000.Idx) hi).trans
      (bond_at x0 l0 6 0 (by decide) (by decide) 2 (by decide) _ _ _ _ _ _ _ _ _ _ _ 0 r)

end Cert.KernelIdeal.Block

end
-- ==== Proof.Relayout.lean ====
/-
  The two re-layouts around the kernel's region, as pure functions.

  Before the region the host flattens the positions [16, 200000, 18] to rows [3200000, 18]: row R is molecule
  (R / 200000, R mod 200000). The region produces a [3, 3200000] array holding at (p, R) the p-th bond constraint
  of row R. After the region the host transposes that array to [3200000, 3] and unflattens it to [16, 200000, 3].
  Composed, the three steps give exactly G: at (b, n, p) the p-th constraint of molecule (b, n).
-/
import proofs.«173525_j36472862277947_2_alg».proof.Proof.Gen.KernelIdeal
import proofs.«173525_j36472862277947_2_alg».proof.Proof.Spec
import Idealize.ShloMosaic.Lib.Pipeline.Value
import Idealize.ShloMosaic.Lib.ValueIdx
import Idealize.ShloMosaic.Lib.ValueLayout

noncomputable section

namespace Cert.KernelIdeal.Whole

open Cert.KernelIdeal Cert.Water
open Idealize.ShloMosaic Idealize.ShloMosaic.ValueIdx

/-- The region's output as a function of the flattened positions and the lengths: at (p, R) the p-th bond
    constraint of row R. -/
def rows (xf : S3200000x18.Idx → EReal) (l : S3.Idx → EReal) : S3x3200000.Idx → EReal :=
  fun i => constraint (fun c => xf (ix2 (i 1 : Fin 3200000) c)) (fun q => l (ix1 q)) (i 0 : Fin 3)

theorem rows_apply (xf : S3200000x18.Idx → EReal) (l : S3.Idx → EReal) (p : Fin 3) (R : Fin 3200000) :
    rows xf l (ix2 p R) = constraint (fun c => xf (ix2 R c)) (fun q => l (ix1 q)) p := rfl

/-- Flatten, compute row by row, transpose, unflatten: the result is G of the unflattened positions. -/
theorem relayout (x : S16x200000x18.Idx → EReal) (l : S3.Idx → EReal)
    (h1 : S16x200000x18.ShapeCasts S3200000x18) (h2 : S3x3200000.Transposes [1, 0] S3200000x3)
    (h3 : S3200000x3.ShapeCasts S16x200000x3) :
    shapeCast S16x200000x3 (transpose S3200000x3 [1, 0] (rows (shapeCast S3200000x18 x h1) l) h2) h3 = G x l := by
  funext i
  obtain ⟨b, n, p, rfl⟩ : ∃ (b : Fin 16) (n : Fin 200000) (p : Fin 3), i = ix3 b n p := ⟨i 0, i 1, i 2, eq_ix3 i⟩
  have hb := b.isLt
  have hn := n.isLt
  have hR : b.val * 200000 + n.val < 3200000 := by omega
  refine (shapeCast_apply _ h3 (ix3 b n p) (ix2 (⟨b.val * 200000 + n.val, hR⟩ : Fin 3200000) p) ?_).trans ?_
  · rw [Shape.rowMajor_val_two, Shape.rowMajor_val_three]
    rfl
  refine (transpose_ix2_apply _ h2 _ _).trans ?_
  rw [rows_apply, G_apply]
  refine congrArg (fun row => constraint row (fun q => l (ix1 q)) p) (funext fun c => ?_)
  refine shapeCast_apply x h1 (ix2 (⟨b.val * 200000 + n.val, hR⟩ : Fin 3200000) c) (ix3 b n c) ?_
  rw [Shape.rowMajor_val_three, Shape.rowMajor_val_two]
  rfl

end Cert.KernelIdeal.Whole

end
-- ==== Proof.KernelArray.lean ====
/-
  The kernel's result array, from blocks to the whole, and the program's result.

  Grid point t of the 200 loads rows 16000·t … 16000·t + 15999 of the flattened positions and writes columns
  16000·t … of the [3, 3200000] output, so what it writes back is its block of ONE function of the flattened
  positions and the lengths (at (p, R) the p-th bond constraint of row R). The 200 blocks tile the output, so after
  the run the output array is that function everywhere; the host's transpose and unflattening then give G.
-/
import proofs.«173525_j36472862277947_2_alg».proof.Proof.Gen.KernelIdeal.Frame
import proofs.«173525_j36472862277947_2_alg».proof.Proof.KernelBlock
import proofs.«173525_j36472862277947_2_alg».proof.Proof.Relayout
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Block Cert.Water
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The block indices at grid point t: the positions' block and the output's block are both number t along the long
    axis and 0 along the short one; the lengths' block is always block 0. -/
theorem block_indices : ∀ t : Fin cfg0.N, win0_0.index t (0 : Fin 2) = t.val ∧ win0_0.index t (1 : Fin 2) = 0
    ∧ win0_1.index t (0 : Fin 1) = 0 ∧ win0_2.index t (0 : Fin 2) = 0 ∧ win0_2.index t (1 : Fin 2) = t.val :=
  (by decide +kernel : ∀ t : Fin grid0.N, _)

/-- What the body stores from a block that is rows T·16000 … of the flattened positions, at a block index that sits
    at (p, T·16000 + r) of the output: the output function there. -/
theorem stored_eq (x0 : Vec Ideal S16000x18 .f32) (l0 : Vec Ideal S3 .f32) (xf : S3200000x18.Idx → EReal) (l : S3.Idx → EReal)
    (T : Nat) (hT : T < 200)
    (hx : ∀ (r : Fin 16000) (c : Fin 18), x0 (ix2 r c) = xf (ix2 (⟨T * 16000 + r.val, by have := r.isLt; omega⟩ : Fin 3200000) c))
    (hl : ∀ q : Fin 3, l0 (ix1 q) = l (ix1 q))
    (y : S3x16000.Idx) (i : S3x3200000.Idx) (hi0 : (i 0).val = (y 0).val) (hi1 : (i 1).val = T * 16000 + (y 1).val) :
    k0_pay1 (F := Ideal) x0 l0 y = rows xf l i := by
  obtain ⟨p, r, rfl⟩ : ∃ (p : Fin 3) (r : Fin 16000), y = ix2 p r := ⟨y 0, y 1, eq_ix2 y⟩
  have hR : T * 16000 + r.val < 3200000 := by have := r.isLt; omega
  obtain ⟨p', R, rfl⟩ : ∃ (p' : Fin 3) (R : Fin 3200000), i = ix2 p' R := ⟨i 0, i 1, eq_ix2 i⟩
  have ep : p' = p := Fin.ext hi0
  have eR : R = ⟨T * 16000 + r.val, hR⟩ := Fin.ext hi1
  subst ep
  subst eR
  rw [pay_at, rows_apply]
  refine congrArg₂ (fun row len => constraint row len p') (funext fun c => hx r c) (funext fun q => hl q)

/-- The positions' block at point t is rows 16000·t … of the flattened positions. -/
theorem read_rows (c : Dev nD) (t : Fin cfg0.N) (r : Fin 16000) (k : Fin 18) :
    iblk m c 0 t (ix2 r k) = V m c main_v0 (ix2 (⟨t.val * 16000 + r.val, by
      have := t.isLt; have hN : cfg0.N = 200 := N_0; have := r.isLt; omega⟩ : Fin 3200000) k) := by
  obtain ⟨e0, e1, -, -, -⟩ := block_indices t
  show V m c main_v0 (((cfg0.win 0).blk t).view.emb (ix2 r k)) = _
  refine congrArg (V m c main_v0) (funext fun a => Fin.ext ?_)
  match a with
  | ⟨0, _⟩ => show win0_0.index t (0 : Fin 2) * 16000 + 1 * r.val = t.val * 16000 + r.val; omega
  | ⟨1, _⟩ => show win0_0.index t (1 : Fin 2) * 18 + 1 * k.val = k.val; omega

/-- The lengths' block at every point is the whole lengths array. -/
theorem read_lens (c : Dev nD) (t : Fin cfg0.N) (q : Fin 3) :
    iblk m c 1 t (ix1 q) = V m c main_arg1 (ix1 q) := by
  obtain ⟨-, -, e2, -, -⟩ := block_indices t
  show V m c main_arg1 (((cfg0.win 1).blk t).view.emb (ix1 q)) = _
  refine congrArg (V m c main_arg1) (funext fun a => Fin.ext ?_)
  match a with
  | ⟨0, _⟩ => show win0_1.index t (0 : Fin 1) * 3 + 1 * q.val = q.val; omega

/-- What point t writes back is its block of the output function of the region-entry arrays. -/
theorem flushed_eq (c : Dev nD) (t : Fin cfg0.N) :
    (dats m 0 c).flushed 2 t
      = ((cfg0.win 2).blk t).view.read (Elt Ideal) (rows (V m c main_v0) (V m c main_arg1)) := by
  show (cfg0.win 2).cut (grid0.coords t) ((dats m 0 c).after 2 t) = _
  rw [after0_2]
  unfold out0_2
  rw [View.canon_unit_zero zeros2]
  simp only [View.ld_unit_zero (S := S16000x18) zeros2, View.ld_unit_zero (S := S3) zeros1]
  obtain ⟨-, -, -, e3, e4⟩ := block_indices t
  have hN : cfg0.N = 200 := N_0
  funext y
  show k0_pay1 (F := Ideal) (iblk m c 0 t) (iblk m c 1 t) y
    = rows (V m c main_v0) (V m c main_arg1) (((cfg0.win 2).blk t).view.emb y)
  refine stored_eq (iblk m c 0 t) (iblk m c 1 t) (V m c main_v0) (V m c main_arg1) t.val
    (by have := t.isLt; omega) (read_rows m c t) (read_lens m c t) y _ ?_ ?_
  · show win0_2.index t (0 : Fin 2) * 3 + 1 * (y 0).val = (y 0).val; omega
  · show win0_2.index t (1 : Fin 2) * 16000 + 1 * (y 1).val = t.val * 16000 + (y 1).val; omega

/-- An index of the output is in point t's block iff each coordinate is in the block's range on its axis. -/
theorem mem_blk (t : Fin cfg0.N) (i : S3x3200000.Idx) :
    i ∈ ((cfg0.win 2).blk t).view.set ↔ ∀ a : Fin 2, win0_2.index t a * S3x16000.size a ≤ (i a).val
      ∧ (i a).val < win0_2.index t a * S3x16000.size a + S3x16000.size a := by
  show i ∈ ((View.whole main_v1).slice (win0_2.rect t)).set ↔ _
  rw [View.set_slice_whole, Rect.mem_set_unit]
  exact Iff.rfl

/-- Column R of the output is in the block of point R / 16000. -/
theorem covered (i : S3x3200000.Idx) :
    ∃ t : Fin cfg0.N, (cfg0.win 2).flush t = true ∧ i ∈ ((cfg0.win 2).blk t).view.set := by
  have hi0 : (i 0).val < 3 := (i 0).isLt
  have hi1 : (i 1).val < 3200000 := (i 1).isLt
  have hN : cfg0.N = 200 := N_0
  have ht : (i 1).val / 16000 < cfg0.N := by omega
  obtain ⟨-, -, -, e3, e4⟩ := block_indices ⟨(i 1).val / 16000, ht⟩
  have e4' : win0_2.index ⟨(i 1).val / 16000, ht⟩ (1 : Fin 2) = (i 1).val / 16000 := e4
  refine ⟨⟨(i 1).val / 16000, ht⟩, flush0_2 _, ?_⟩
  rw [mem_blk]
  intro a
  match a with
  | ⟨0, _⟩ =>
    show win0_2.index ⟨(i 1).val / 16000, ht⟩ (0 : Fin 2) * 3 ≤ (i 0).val
      ∧ (i 0).val < win0_2.index ⟨(i 1).val / 16000, ht⟩ (0 : Fin 2) * 3 + 3
    omega
  | ⟨1, _⟩ =>
    show win0_2.index ⟨(i 1).val / 16000, ht⟩ (1 : Fin 2) * 16000 ≤ (i 1).val
      ∧ (i 1).val < win0_2.index ⟨(i 1).val / 16000, ht⟩ (1 : Fin 2) * 16000 + 16000
    omega

/-- The output array after the run: the output function of the region-entry arrays. -/
theorem region_out (c : Dev nD) :
    (dats m 0 c).arrAt 2 cfg0.N = rows (V m c main_v0) (V m c main_arg1) :=
  (dats m 0 c).arrAt_eq_of_cover 2 _ (fun t _ => flushed_eq m c t) covered

/-- The flattened positions as the region finds them: the host's reshape of the position argument. -/
theorem entry_rows (c : Dev nD) :
    V m c main_v0 = shapeCast S3200000x18 (m ((c : Thread nD τ).loc main_arg0)) shapeCasts_S16x200000x18_S3200000x18 := by
  show StableHlo.after hostOps0 (fun b => m (c, b)) (Proc.devRef .tc main_v0) = _
  after_results
  rfl

/-- The program's result: the host's transpose and unflattening of the region's output is G of the arguments. -/
theorem tail_out (c : Dev nD) :
    Pipeline.afterTail₀ cfgs (dats m) 0 (V0 m) [hostOps1] c main_v3
      = G (m ((c : Thread nD τ).loc main_arg0)) (m ((c : Thread nD τ).loc main_arg1)) := by
  have e : Pipeline.withArrays (cfgs 0).spec c (V0 m c) (fun w => (dats m 0 c).arrAt w (cfgs 0).N) (Proc.devRef .tc main_v1)
      = rows (shapeCast S3200000x18 (m ((c : Thread nD τ).loc main_arg0)) shapeCasts_S16x200000x18_S3200000x18)
          (m ((c : Thread nD τ).loc main_arg1)) := by
    refine (Pipeline.withArrays_arr spec0 launch0.win.arr_inj c _ _ 2).trans ?_
    show (dats m 0 c).arrAt 2 cfg0.N = _
    rw [region_out m c, entry_rows m c, V_main_arg1 m c]
  unfold Pipeline.afterTail₀
  show StableHlo.after hostOps1 _ (Proc.devRef .tc main_v3) = _
  after_results
  rw [e]
  exact relayout _ _ _ _ _

/-- The kernel's run: every weakly fair execution terminates with the result array at G of the arguments and the
    arguments unchanged. -/
theorem run : θ_run defs (onTc (τ := τ) (main (F := Ideal))) ⟨m, fun _ => 0, ρ⟩ (fun r => ∀ c : Dev nD,
      r.2.mem ((c.tc : Thread nD τ).loc main_v3)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (tail_out m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefRead.lean ====
/-
  The reference, read at an index.

  The reference cuts the nine position channels out of each row, views them as 3 particles × 3 coordinates, slices
  out each particle, forms the three differences r0 − r1, r1 − r2, r2 − r0, stacks them back along the particle
  axis, squares, sums over the coordinate axis from the initial value 0, takes the square root and subtracts the
  lengths broadcast over rows. At (b, n, p) this is the p-th bond constraint of row (b, n): the function G.
-/
import proofs.«173525_j36472862277947_2_alg».proof.Proof.Gen.ReferenceIdeal.Read
import proofs.«173525_j36472862277947_2_alg».proof.Proof.LibConcat3
import proofs.«173525_j36472862277947_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Cert.Water
open Idealize.ShloMosaic Idealize.ShloMosaic.ValueIdx

/-- The position array's contents at the ideal instance. -/
abbrev X18 : Type := (⟨S16x200000x18, .f32⟩ : BufTy).Contents (Elt Ideal)

/-- The positions viewed as particles × coordinates: at (b, n, p, k) channel 3p + k of row (b, n). -/
theorem positions_at (x0 : X18) (b : Fin 16) (n : Fin 200000) (p k : Fin 3) :
    val_main_v1 (F := Ideal) x0 (ix4 b n p k) = x0 (ix3 b n (ch p k)) := by
  refine (val_main_v1_apply x0 _).trans ((val_main_v0_apply x0 _).trans (congrArg x0 ?_))
  have hb := b.isLt; have hn := n.isLt; have hp := p.isLt; have hk := k.isLt
  funext a; apply Fin.ext
  match a with
  | ⟨0, _⟩ => show (((b.val * 200000 + n.val) * 3 + p.val) * 3 + k.val) / 1800000 = b.val; omega
  | ⟨1, _⟩ => show (((b.val * 200000 + n.val) * 3 + p.val) * 3 + k.val) / 9 % 200000 = n.val; omega
  | ⟨2, _⟩ => show (((b.val * 200000 + n.val) * 3 + p.val) * 3 + k.val) % 9 = 3 * p.val + k.val; omega

/-- One particle of every row: the particle axis sliced at p and then dropped. -/
theorem particle_at (y : (⟨S16x200000x3x3, .f32⟩ : BufTy).Contents (Elt Ideal)) (p : Nat) (hp : p < 3)
    (hs : S16x200000x3x3.Slices ![0, 0, p, 0] S16x200000x1x3) (hc : S16x200000x1x3.ShapeCasts S16x200000x3)
    (b : Fin 16) (n : Fin 200000) (k : Fin 3) :
    shapeCast S16x200000x3 (extractStridedSlice S16x200000x1x3 ![0, 0, p, 0] y hs) hc (ix3 b n k)
      = y (ix4 b n (⟨p, hp⟩ : Fin 3) k) := by
  refine (shapeCast_apply _ hc (ix3 b n k) (ix4 b n (0 : Fin 1) k) ?_).trans ?_
  · rw [Shape.rowMajor_val_four, Shape.rowMajor_val_three]
    show ((b.val * 200000 + n.val) * 1 + 0) * 3 + k.val = (b.val * 200000 + n.val) * 3 + k.val
    omega
  · refine extractStridedSlice_apply ![0, 0, p, 0] y hs _ _ (fun a => ?_)
    match a with
    | ⟨0, _⟩ => show b.val = 0 + b.val; omega
    | ⟨1, _⟩ => show n.val = 0 + n.val; omega
    | ⟨2, _⟩ => show p = p + 0; omega
    | ⟨3, _⟩ => show k.val = 0 + k.val; omega

theorem v3_at (x0 : X18) (b : Fin 16) (n : Fin 200000) (k : Fin 3) :
    val_main_v3 (F := Ideal) x0 (ix3 b n k) = x0 (ix3 b n (ch 0 k)) := by
  unfold val_main_v3 val_main_v2
  exact (particle_at (val_main_v1 x0) 0 (by decide) _ _ b n k).trans (positions_at x0 b n 0 k)
theorem v5_at (x0 : X18) (b : Fin 16) (n : Fin 200000) (k : Fin 3) :
    val_main_v5 (F := Ideal) x0 (ix3 b n k) = x0 (ix3 b n (ch 1 k)) := by
  unfold val_main_v5 val_main_v4
  exact (particle_at (val_main_v1 x0) 1 (by decide) _ _ b n k).trans (positions_at x0 b n 1 k)
theorem v8_at (x0 : X18) (b : Fin 16) (n : Fin 200000) (k : Fin 3) :
    val_main_v8 (F := Ideal) x0 (ix3 b n k) = x0 (ix3 b n (ch 1 k)) := by
  unfold val_main_v8 val_main_v7
  exact (particle_at (val_main_v1 x0) 1 (by decide) _ _ b n k).trans (positions_at x0 b n 1 k)
theorem v10_at (x0 : X18) (b : Fin 16) (n : Fin 200000) (k : Fin 3) :
    val_main_v10 (F := Ideal) x0 (ix3 b n k) = x0 (ix3 b n (ch 2 k)) := by
  unfold val_main_v10 val_main_v9
  exact (particle_at (val_main_v1 x0) 2 (by decide) _ _ b n k).trans (positions_at x0 b n 2 k)
theorem v13_at (x0 : X18) (b : Fin 16) (n : Fin 200000) (k : Fin 3) :
    val_main_v13 (F := Ideal) x0 (ix3 b n k) = x0 (ix3 b n (ch 2 k)) := by
  unfold val_main_v13 val_main_v12
  exact (particle_at (val_main_v1 x0) 2 (by decide) _ _ b n k).trans (positions_at x0 b n 2 k)
theorem v15_at (x0 : X18) (b : Fin 16) (n : Fin 200000) (k : Fin 3) :
    val_main_v15 (F := Ideal) x0 (ix3 b n k) = x0 (ix3 b n (ch 0 k)) := by
  unfold val_main_v15 val_main_v14
  exact (particle_at (val_main_v1 x0) 0 (by decide) _ _ b n k).trans (positions_at x0 b n 0 k)

/-- The three differences, each given back its unit particle axis. -/
theorem d01_at (x0 : X18) (b : Fin 16) (n : Fin 200000) (z : Fin 1) (k : Fin 3) :
    val_main_v17 (F := Ideal) x0 (ix4 b n z k) = x0 (ix3 b n (ch 0 k)) - x0 (ix3 b n (ch 1 k)) := by
  refine (val_main_v17_apply x0 _).trans ?_
  have e : idx_main_v17 (ix4 b n z k) = ix3 b n k := by
    funext a; match a with | ⟨0, _⟩ => rfl | ⟨1, _⟩ => rfl | ⟨2, _⟩ => rfl
  rw [e, val_main_v6_apply, v3_at, v5_at]; rfl
theorem d12_at (x0 : X18) (b : Fin 16) (n : Fin 200000) (z : Fin 1) (k : Fin 3) :
    val_main_v18 (F := Ideal) x0 (ix4 b n z k) = x0 (ix3 b n (ch 1 k)) - x0 (ix3 b n (ch 2 k)) := by
  refine (val_main_v18_apply x0 _).trans ?_
  have e : idx_main_v18 (ix4 b n z k) = ix3 b n k := by
    funext a; match a with | ⟨0, _⟩ => rfl | ⟨1, _⟩ => rfl | ⟨2, _⟩ => rfl
  rw [e, val_main_v11_apply, v8_at, v10_at]; rfl
theorem d20_at (x0 : X18) (b : Fin 16) (n : Fin 200000) (z : Fin 1) (k : Fin 3) :
    val_main_v19 (F := Ideal) x0 (ix4 b n z k) = x0 (ix3 b n (ch 2 k)) - x0 (ix3 b n (ch 0 k)) := by
  refine (val_main_v19_apply x0 _).trans ?_
  have e : idx_main_v19 (ix4 b n z k) = ix3 b n k := by
    funext a; match a with | ⟨0, _⟩ => rfl | ⟨1, _⟩ => rfl | ⟨2, _⟩ => rfl
  rw [e, val_main_v16_apply, v13_at, v15_at]; rfl

/-- The differences stacked along the particle axis: at particle p the difference from p to the next particle. -/
theorem stacked_at (x0 : X18) (b : Fin 16) (n : Fin 200000) (p k : Fin 3) :
    val_main_v20 (F := Ideal) x0 (ix4 b n p k) = x0 (ix3 b n (ch p k)) - x0 (ix3 b n (ch (nxt p) k)) := by
  unfold val_main_v20
  have hi : ∀ a : Fin S16x200000x1x3.rank, a.cast (rfl : S16x200000x1x3.rank = S16x200000x3x3.rank) ≠ (2 : Fin 4) →
      ((ix4 b n (0 : Fin 1) k : S16x200000x1x3.Idx) a).val = ((ix4 b n p k : S16x200000x3x3.Idx) (a.cast rfl)).val := by
    intro a ha
    match a with
    | ⟨0, _⟩ => rfl
    | ⟨1, _⟩ => rfl
    | ⟨2, _⟩ => exact absurd (Fin.ext rfl) ha
    | ⟨3, _⟩ => rfl
  match p with
  | ⟨0, h0⟩ =>
    exact (Cert.LibConcat3.apply_zero (t := S16x200000x3x3) (s₁ := S16x200000x1x3) (2 : Fin 4) _ _ _ _ rfl rfl (ix4 b n (⟨0, h0⟩ : Fin 3) k : S16x200000x3x3.Idx) rfl
      (ix4 b n (0 : Fin 1) k : S16x200000x1x3.Idx) hi).trans (d01_at x0 b n 0 k)
  | ⟨1, h1⟩ =>
    exact (Cert.LibConcat3.apply_one (t := S16x200000x3x3) (s₁ := S16x200000x1x3) (2 : Fin 4) _ _ _ _ rfl rfl (ix4 b n (⟨1, h1⟩ : Fin 3) k : S16x200000x3x3.Idx) rfl
      (ix4 b n (0 : Fin 1) k : S16x200000x1x3.Idx) hi).trans (d12_at x0 b n 0 k)
  | ⟨2, h2⟩ =>
    exact (Cert.LibConcat3.apply_two (t := S16x200000x3x3) (s₁ := S16x200000x1x3) (2 : Fin 4) _ _ _ _ rfl rfl (ix4 b n (⟨2, h2⟩ : Fin 3) k : S16x200000x3x3.Idx) rfl
      (ix4 b n (0 : Fin 1) k : S16x200000x1x3.Idx) hi).trans (d20_at x0 b n 0 k)

/-- The reference's result is G of its two arguments. -/
theorem ref_eq (x0 : X18) (x1 : (⟨S3, .f32⟩ : BufTy).Contents (Elt Ideal)) :
    val_main_v26 (F := Ideal) x0 x1 = G x0 x1 := by
  funext i
  obtain ⟨b, n, p, rfl⟩ : ∃ (b : Fin 16) (n : Fin 200000) (p : Fin 3), i = ix3 b n p := ⟨i 0, i 1, i 2, eq_ix3 i⟩
  rw [G_apply, val_main_v26_apply, val_main_v23_apply, val_main_v22_apply, val_main_v25_apply, val_main_v24_apply,
    val_main_cst_apply]
  have e : idx_main_v24 (idx_main_v25 (ix3 b n p)) = ix1 p := by
    funext a; match a with | ⟨0, _⟩ => rfl
  rw [e]
  unfold constraint bondLen
  simp only [Ideal.subf_def, Ideal.hostUnary_sqrt_def, Ideal.ofBits_def, Ideal.ofBits_zero_f32, zero_add]
  refine congrArg (fun s => Ideal.sqrt s - x1 (ix1 p)) ?_
  refine Finset.sum_congr rfl fun k _ => ?_
  have ek : idx_main_v22 (ix3 b n p) k = ix4 b n p k := by
    funext a; match a with | ⟨0, _⟩ => rfl | ⟨1, _⟩ => rfl | ⟨2, _⟩ => rfl | ⟨3, _⟩ => rfl
  rw [ek, val_main_v21_apply, stacked_at]; rfl

end Cert.ReferenceIdeal.RefValue

end
-- ==== Proof.lean ====
/-
  The bond constraints of rigid water molecules: a tiled kernel against its array-level reference, equal on the
  extended reals.

  Each row of the position array holds three particles (channels 3p, 3p+1, 3p+2 for particle p). For every row
  (b, n) and particle p both programs compute

      √( Σ_k (x (b, n, 3p+k) − x (b, n, 3p'+k))² ) − l p,      p' the next particle cyclically,  k = 0, 1, 2

  (Proof/Spec.lean, the function G). The reference does it on whole arrays: slice the nine position channels, view
  them as particles × coordinates, subtract neighbouring particles, stack, square, sum over the coordinate axis,
  square root, subtract the lengths (Proof/RefRead.lean reads its run index by index). The kernel flattens the rows,
  walks them in 200 blocks of 16000, transposes each block so rows run along the fast axis, computes the same
  quantity per row (Proof/KernelBlock.lean), writes a [3, 16000] block of a [3, 3200000] array, and the host
  transposes and unflattens that array (Proof/KernelArray.lean: the blocks tile the array; Proof/Relayout.lean: the
  re-layouts compose to G). The only algebra between the two sides is 0 + s = s for the reference's initial value
  of the sum, which holds for every extended real, so the inputs' finiteness is not used.

  The idealization rewrote no operation, so the kernel's idealized program is its own text at the ideal instance
  and the preservation conjunct is trivial. The three frames are the programs' runs with the results dropped.
-/
import proofs.«173525_j36472862277947_2_alg».proof.Defs
import proofs.«173525_j36472862277947_2_alg».proof.Proof.Gen.Kernel
import proofs.«173525_j36472862277947_2_alg».proof.Proof.Gen.Kernel.Frame
import proofs.«173525_j36472862277947_2_alg».proof.Proof.Gen.KernelIdeal
import proofs.«173525_j36472862277947_2_alg».proof.Proof.Gen.KernelIdeal.Frame
import proofs.«173525_j36472862277947_2_alg».proof.Proof.Gen.ReferenceIdeal
import proofs.«173525_j36472862277947_2_alg».proof.Proof.Gen.ReferenceIdeal.Run
import proofs.«173525_j36472862277947_2_alg».proof.Proof.Gen.ReferenceIdeal.Read
import proofs.«173525_j36472862277947_2_alg».proof.Proof.Gen.Pre_finite_inputs
import proofs.«173525_j36472862277947_2_alg».proof.Proof.KernelArray
import proofs.«173525_j36472862277947_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at G of the (agreeing) arguments. -/
theorem algebraic : Cert.algebraic_KernelIdeal_ReferenceIdeal := by
  intro m ρ m' ρ' _ hagree
  refine ⟨fun c => Cert.Water.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
